-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x6 : Shape := ⟨3, ![2, 4096, 6]⟩
abbrev S2048x6 : Shape := ⟨2, ![2048, 6]⟩
abbrev S_ : Shape := ⟨0, ![]⟩

class Facts : Prop where
  bcast_S_S2x4096x6 : S_.BroadcastsInDim S2x4096x6 (![] : Fin 0 → Fin S2x4096x6.rank)
  reducesTo_S2x4096x6_S_d0_1_2 : S2x4096x6.ReducesTo [0, 1, 2] S_
  h_S_ : 0 < S_.numel
  bcast_S_S2048x6 : S_.BroadcastsInDim S2048x6 (![] : Fin 0 → Fin S2048x6.rank)
  reducesTo_S2048x6_S_d0_1 : S2048x6.ReducesTo [0, 1] S_

variable [Facts]

def fn {F : FTy → Type} [FloatOps F] (main_arg0 : FVec F S2x4096x6 .f32) (main_arg1 : FVec F S2048x6 .f32) : IVec S_ 1 :=
  let main_v0 : FVec F S2x4096x6 .f32 := Host.absf main_arg0
  let main_cst : FVec F S_ .f32 := constant S_ .f32 0x7F800000#32
  let main_v1 : FVec F S2x4096x6 .f32 := broadcastInDim S2x4096x6 ![] bcast_S_S2x4096x6 main_cst
  let main_v2 : IVec S2x4096x6 1 := cmpf .olt main_v0 main_v1
  let main_c : IVec S_ 1 := constantI S_ 1 1#1
  let main_v3 : IVec S_ 1 := (fun x v => Host.reduce IntOp.andi x v reducesTo_S2x4096x6_S_d0_1_2 h_S_) main_v2 main_c
  let main_v4 : FVec F S2048x6 .f32 := Host.absf main_arg1
  let main_cst_0 : FVec F S_ .f32 := constant S_ .f32 0x7F800000#32
  let main_v5 : FVec F S2048x6 .f32 := broadcastInDim S2048x6 ![] bcast_S_S2048x6 main_cst_0
  let main_v6 : IVec S2048x6 1 := cmpf .olt main_v4 main_v5
  let main_c_1 : IVec S_ 1 := constantI S_ 1 1#1
  let main_v7 : IVec S_ 1 := (fun x v => Host.reduce IntOp.andi x v reducesTo_S2048x6_S_d0_1 h_S_) main_v6 main_c_1
  let main_v8 : IVec S_ 1 := andi main_v3 main_v7
  main_v8
-- ==== Kernel.lean ====
abbrev S2x4096x6 : Shape := ⟨3, ![2, 4096, 6]⟩
abbrev S2048x6 : Shape := ⟨2, ![2048, 6]⟩
abbrev S2x6x4096 : Shape := ⟨3, ![2, 6, 4096]⟩
abbrev S6x2048 : Shape := ⟨2, ![6, 2048]⟩
abbrev S2x2048 : Shape := ⟨2, ![2, 2048]⟩
abbrev S2x6x2048 : Shape := ⟨3, ![2, 6, 2048]⟩
abbrev S6x256 : Shape := ⟨2, ![6, 256]⟩
abbrev S2x256 : Shape := ⟨2, ![2, 256]⟩
abbrev S1x256 : Shape := ⟨2, ![1, 256]⟩
abbrev S256 : Shape := ⟨1, ![256]⟩
abbrev S2x1x2048 : Shape := ⟨3, ![2, 1, 2048]⟩
abbrev S1x256x1 : Shape := ⟨3, ![1, 256, 1]⟩
abbrev S2x256x2048 : Shape := ⟨3, ![2, 256, 2048]⟩
abbrev S2048x2 : Shape := ⟨2, ![2048, 2]⟩
abbrev S_ : Shape := ⟨0, ![]⟩
abbrev S2 : Shape := ⟨1, ![2]⟩
abbrev S1x2 : Shape := ⟨2, ![1, 2]⟩
abbrev S1x2048x2 : Shape := ⟨3, ![1, 2048, 2]⟩

abbrev nBuf : Space → Nat
  | .hbm => 12
  | .vmem => 7
  | .smem => 0
  | _ => 0

abbrev bufTy : (tb : Table) → Fin (tcTables nBuf tb) → BufTy
  | .hbm, ⟨0, _⟩ => ⟨S2x4096x6, .f32⟩
  | .hbm, ⟨1, _⟩ => ⟨S2048x6, .f32⟩
  | .hbm, ⟨2, _⟩ => ⟨S2x6x4096, .f32⟩
  | .hbm, ⟨3, _⟩ => ⟨S6x2048, .f32⟩
  | .hbm, ⟨4, _⟩ => ⟨S2x2048, .f32⟩
  | .hbm, ⟨5, _⟩ => ⟨S2048x2, .f32⟩
  | .hbm, ⟨6, _⟩ => ⟨S_, .f32⟩
  | .hbm, ⟨7, _⟩ => ⟨S2, .f32⟩
  | .hbm, ⟨8, _⟩ => ⟨S1x2, .f32⟩
  | .hbm, ⟨9, _⟩ => ⟨S2048x2, .f32⟩
  | .hbm, ⟨10, _⟩ => ⟨S2048x2, .f32⟩
  | .hbm, ⟨11, _⟩ => ⟨S1x2048x2, .f32⟩
  | .local _ .vmem, ⟨0, _⟩ => ⟨S2x6x2048, .f32⟩
  | .local _ .vmem, ⟨1, _⟩ => ⟨S2x6x2048, .f32⟩
  | .local _ .vmem, ⟨2, _⟩ => ⟨S6x256, .f32⟩
  | .local _ .vmem, ⟨3, _⟩ => ⟨S6x256, .f32⟩
  | .local _ .vmem, ⟨4, _⟩ => ⟨S2x256, .f32⟩
  | .local _ .vmem, ⟨5, _⟩ => ⟨S2x256, .f32⟩
  | .local _ .vmem, ⟨6, _⟩ => ⟨S2x256, .f32⟩
  | _, _ => ⟨S2x4096x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v81 : BitVec 1 := Scalar.cmpi .eq arg1 c1_i32
  let v82 : BitVec 32 := Scalar.extui v81
  let c0_i32_10 : BitVec 32 := 0#32
  let v83 : BitVec 1 := Scalar.cmpi .ne v82 c0_i32_10
  v83

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x6x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S6x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S2x4096x6_S2x6x4096_0_2_1 : S2x4096x6.Transposes [0, 2, 1] S2x6x4096
  transposes_S2048x6_S6x2048_1_0 : S2048x6.Transposes [1, 0] S6x2048
  inb_S2x256_S2x256_0_0 : ∀ a, (![0, 0] : Fin 2 → Nat) a + S2x256.size a ≤ S2x256.size a
  h_S2x256 : 0 < S2x256.numel
  shapeCasts_S2x256_S2x256 : S2x256.ShapeCasts S2x256
  inb_S6x256_S6x256_0_0 : ∀ a, (![0, 0] : Fin 2 → Nat) a + S6x256.size a ≤ S6x256.size a
  h_S6x256 : 0 < S6x256.numel
  shapeCasts_S6x256_S6x256 : S6x256.ShapeCasts S6x256
  inb_S2x6x2048_S2x6x2048_0_0_0 : ∀ a, (![0, 0, 0] : Fin 3 → Nat) a + S2x6x2048.size a ≤ S2x6x2048.size a
  h_S2x6x2048 : 0 < S2x6x2048.numel
  shapeCasts_S2x6x2048_S2x6x2048 : S2x6x2048.ShapeCasts S2x6x2048
  slices_S6x256_o0_0_S1x256 : S6x256.Slices ![0, 0] S1x256
  shapeCasts_S1x256_S256 : S1x256.ShapeCasts S256
  slices_S2x6x2048_o0_0_0_S2x1x2048 : S2x6x2048.Slices ![0, 0, 0] S2x1x2048
  shapeCasts_S2x1x2048_S2x2048 : S2x1x2048.ShapeCasts S2x2048
  shapeCasts_S256_S1x256x1 : S256.ShapeCasts S1x256x1
  shapeCasts_S2x2048_S2x1x2048 : S2x2048.ShapeCasts S2x1x2048
  broadcasts_S1x256x1_S2x256x2048 : S1x256x1.Broadcasts S2x256x2048
  broadcasts_S2x1x2048_S2x256x2048 : S2x1x2048.Broadcasts S2x256x2048
  slices_S6x256_o1_0_S1x256 : S6x256.Slices ![1, 0] S1x256
  slices_S2x6x2048_o0_1_0_S2x1x2048 : S2x6x2048.Slices ![0, 1, 0] S2x1x2048
  slices_S6x256_o2_0_S1x256 : S6x256.Slices ![2, 0] S1x256
  slices_S2x6x2048_o0_2_0_S2x1x2048 : S2x6x2048.Slices ![0, 2, 0] S2x1x2048
  slices_S6x256_o3_0_S1x256 : S6x256.Slices ![3, 0] S1x256
  slices_S2x6x2048_o0_3_0_S2x1x2048 : S2x6x2048.Slices ![0, 3, 0] S2x1x2048
  slices_S6x256_o4_0_S1x256 : S6x256.Slices ![4, 0] S1x256
  slices_S2x6x2048_o0_4_0_S2x1x2048 : S2x6x2048.Slices ![0, 4, 0] S2x1x2048
  slices_S6x256_o5_0_S1x256 : S6x256.Slices ![5, 0] S1x256
  slices_S2x6x2048_o0_5_0_S2x1x2048 : S2x6x2048.Slices ![0, 5, 0] S2x1x2048
  reduces_S2x256x2048_S2x256 : S2x256x2048.Reduces [2] S2x256
  transposes_S2x2048_S2048x2_1_0 : S2x2048.Transposes [1, 0] S2048x2
  reducesTo_S2048x2_S2_d0 : S2048x2.ReducesTo [0] S2
  h_S_ : 0 < S_.numel
  bcast_S2_S1x2_1 : S2.BroadcastsInDim S1x2 (![1] : Fin 1 → Fin S1x2.rank)
  bcast_S1x2_S2048x2_0_1 : S1x2.BroadcastsInDim S2048x2 (![0, 1] : Fin 2 → Fin S2048x2.rank)
  bcast_S2048x2_S1x2048x2_1_2 : S2048x2.BroadcastsInDim S1x2048x2 (![1, 2] : Fin 2 → Fin S1x2048x2.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x6x2048.size a ≤ S2x6x4096.size a
  hwx0_0 : ∀ i : grid0.Coords, EltTy.bits .f32 = 32 ∨ (Rect.block (s := S2x6x4096) S2x6x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6x256.size a ≤ S6x2048.size a
  hwx0_1 : ∀ i : grid0.Coords, EltTy.bits .f32 = 32 ∨ (Rect.block (s := S6x2048) S6x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x256.size a ≤ S2x2048.size a
  hwx0_2 : ∀ i : grid0.Coords, EltTy.bits .f32 = 32 ∨ (Rect.block (s := S2x2048) S2x256.size (cc0_transform_2 i) (hinb0_2 i)).WholeWords (EltTy.packing .f32)

variable [Facts₀]

abbrev win0_0 : Pipeline.Window sig grid0 :=
  Pipeline.Window.ofSpec (Memref.whole main_v0) S2x6x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S6x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x4096x6 : Shape := ⟨3, ![2, 4096, 6]⟩
abbrev S2048x6 : Shape := ⟨2, ![2048, 6]⟩
abbrev S1x2x4096x6 : Shape := ⟨4, ![1, 2, 4096, 6]⟩
abbrev S2048x1x1x6 : Shape := ⟨4, ![2048, 1, 1, 6]⟩
abbrev S2048x2x4096x6 : Shape := ⟨4, ![2048, 2, 4096, 6]⟩
abbrev S_ : Shape := ⟨0, ![]⟩
abbrev S2048x2x4096 : Shape := ⟨3, ![2048, 2, 4096]⟩
abbrev S2048x2 : Shape := ⟨2, ![2048, 2]⟩
abbrev S2 : Shape := ⟨1, ![2]⟩
abbrev S1x1x2 : Shape := ⟨3, ![1, 1, 2]⟩
abbrev S1x2048x2 : Shape := ⟨3, ![1, 2048, 2]⟩

abbrev nBuf : Space → Nat
  | .hbm => 23
  | .vmem => 0
  | .smem => 0
  | _ => 0

abbrev bufTy : (tb : Table) → Fin (tcTables nBuf tb) → BufTy
  | .hbm, ⟨0, _⟩ => ⟨S2x4096x6, .f32⟩
  | .hbm, ⟨1, _⟩ => ⟨S2048x6, .f32⟩
  | .hbm, ⟨2, _⟩ => ⟨S1x2x4096x6, .f32⟩
  | .hbm, ⟨3, _⟩ => ⟨S2048x1x1x6, .f32⟩
  | .hbm, ⟨4, _⟩ => ⟨S2048x2x4096x6, .f32⟩
  | .hbm, ⟨5, _⟩ => ⟨S2048x2x4096x6, .f32⟩
  | .hbm, ⟨6, _⟩ => ⟨S2048x2x4096x6, .f32⟩
  | .hbm, ⟨7, _⟩ => ⟨S2048x2x4096x6, .f32⟩
  | .hbm, ⟨8, _⟩ => ⟨S_, .f32⟩
  | .hbm, ⟨9, _⟩ => ⟨S2048x2x4096, .f32⟩
  | .hbm, ⟨10, _⟩ => ⟨S2048x2x4096, .f32⟩
  | .hbm, ⟨11, _⟩ => ⟨S_, .f32⟩
  | .hbm, ⟨12, _⟩ => ⟨S2048x2x4096, .f32⟩
  | .hbm, ⟨13, _⟩ => ⟨S2048x2x4096, .f32⟩
  | .hbm, ⟨14, _⟩ => ⟨S2048x2x4096, .f32⟩
  | .hbm, ⟨15, _⟩ => ⟨S_, .f32⟩
  | .hbm, ⟨16, _⟩ => ⟨S2048x2, .f32⟩
  | .hbm, ⟨17, _⟩ => ⟨S_, .f32⟩
  | .hbm, ⟨18, _⟩ => ⟨S2, .f32⟩
  | .hbm, ⟨19, _⟩ => ⟨S1x1x2, .f32⟩
  | .hbm, ⟨20, _⟩ => ⟨S1x2048x2, .f32⟩
  | .hbm, ⟨21, _⟩ => ⟨S1x2048x2, .f32⟩
  | .hbm, ⟨22, _⟩ => ⟨S1x2048x2, .f32⟩
  | _, _ => ⟨S2x4096x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S2x4096x6_S1x2x4096x6_1_2_3 : S2x4096x6.BroadcastsInDim S1x2x4096x6 (![1, 2, 3] : Fin 3 → Fin S1x2x4096x6.rank)
  bcast_S2048x6_S2048x1x1x6_0_3 : S2048x6.BroadcastsInDim S2048x1x1x6 (![0, 3] : Fin 2 → Fin S2048x1x1x6.rank)
  bcast_S1x2x4096x6_S2048x2x4096x6_0_1_2_3 : S1x2x4096x6.BroadcastsInDim S2048x2x4096x6 (![0, 1, 2, 3] : Fin 4 → Fin S2048x2x4096x6.rank)
  bcast_S2048x1x1x6_S2048x2x4096x6_0_1_2_3 : S2048x1x1x6.BroadcastsInDim S2048x2x4096x6 (![0, 1, 2, 3] : Fin 4 → Fin S2048x2x4096x6.rank)
  reducesTo_S2048x2x4096x6_S2048x2x4096_d3 : S2048x2x4096x6.ReducesTo [3] S2048x2x4096
  h_S_ : 0 < S_.numel
  bcast_S_S2048x2x4096 : S_.BroadcastsInDim S2048x2x4096 (![] : Fin 0 → Fin S2048x2x4096.rank)
  reducesTo_S2048x2x4096_S2048x2_d2 : S2048x2x4096.ReducesTo [2] S2048x2
  reducesTo_S2048x2_S2_d0 : S2048x2.ReducesTo [0] S2
  shapeCasts_S2_S1x1x2 : S2.ShapeCasts S1x1x2
  bcast_S2048x2_S1x2048x2_1_2 : S2048x2.BroadcastsInDim S1x2048x2 (![1, 2] : Fin 2 → Fin S1x2048x2.rank)
  bcast_S1x1x2_S1x2048x2_0_1_2 : S1x1x2.BroadcastsInDim S1x2048x2 (![0, 1, 2] : Fin 3 → Fin S1x2048x2.rank)

variable [Facts₀]

class Facts : Prop extends Facts₀ where

variable [Facts]
-- ==== Proof.Pieces.lean ====
/-
  What one grid step of the kernel leaves behind, as a value.

  The kernel walks a grid of 8 × 2 steps; the second coordinate splits the 4096 samples in two halves. At a step
  on the first half it zeroes its accumulator, then adds to it the step's partial sums; at a step on the second half
  it adds the step's partial sums to what the step before left, and copies the accumulator out as the result tile.
  In both cases what ends in the accumulator — and, on the second half, in the result tile — is ONE function `step` of
  the two operand tiles and of the accumulator's earlier contents (zero on the first half).
-/
import proofs.«117962_j22952305230422_2_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)

namespace Cert.KernelIdeal.Pieces
open Cert.KernelIdeal Cert.KernelIdeal.Gen

variable {F : FTy → Type} [FloatOps F]

/-- The zero offsets of a rank-2 and of a rank-3 whole-tile access. -/
theorem hz2 : (![0, 0] : Fin 2 → Nat) = fun _ => 0 := funext fun a => by fin_cases a <;> rfl
theorem hz3 : (![0, 0, 0] : Fin 3 → Nat) = fun _ => 0 := funext fun a => by fin_cases a <;> rfl

/-- One step's update of the accumulator: `acc` plus, at each (batch, location of the tile), the sum over the
    tile's 2048 samples of the Gaussian weights. -/
def step (x0 : Vec F S2x6x2048 .f32) (x1 : Vec F S6x256 .f32) (acc : Vec F S2x256 .f32) : Vec F S2x256 .f32 :=
  k0_pay1 (k0_pay3 x1) (k0_pay4 x0) (k0_pay5 x1 x0) acc

/-- On the second half the accumulator ends at the step's update of what it held. -/
theorem sout_B (c : Dev nD) (i : grid0.Coords) (a2 : Memref sig .tc .vmem S2x6x2048 .f32) (h2 : a2.IsWhole)
    (a3 : Memref sig .tc .vmem S6x256 .f32) (h3 : a3.IsWhole) (a4 : Memref sig .tc .vmem S2x256 .f32) (h4 : a4.IsWhole)
    (a5 : Memref sig .tc .vmem S2x256 .f32) (h5 : a5.IsWhole) (hc0 : ¬cond0_0 i) (hc1 : cond0_1 i)
    (x0 : Vec F S2x6x2048 .f32) (x1 : Vec F S6x256 .f32) (xs0 : Vec F S2x256 .f32) :
    sout0_B_0 c i a2 h2 a3 h3 a4 h4 a5 h5 hc0 hc1 x0 x1 xs0 = step x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz2]
  simp only [View.readAt_eq_ld, h2.read_unread, h3.read_unread, h5.read_unread, View.ld_unit_zero (S := S6x256) hz2,
    View.ld_unit_zero (S := S2x6x2048) hz3, View.ld_unit_zero (S := S2x256) hz2]
  rfl

/-- On the second half the result tile ends at the same value: it is copied from the accumulator. -/
theorem out_B (c : Dev nD) (i : grid0.Coords) (a2 : Memref sig .tc .vmem S2x6x2048 .f32) (h2 : a2.IsWhole)
    (a3 : Memref sig .tc .vmem S6x256 .f32) (h3 : a3.IsWhole) (a4 : Memref sig .tc .vmem S2x256 .f32) (h4 : a4.IsWhole)
    (a5 : Memref sig .tc .vmem S2x256 .f32) (h5 : a5.IsWhole) (hc0 : ¬cond0_0 i) (hc1 : cond0_1 i)
    (x0 : Vec F S2x6x2048 .f32) (x1 : Vec F S6x256 .f32) (xs0 : Vec F S2x256 .f32) :
    out0_B_2 c i a2 h2 a3 h3 a4 h4 a5 h5 hc0 hc1 x0 x1 xs0 = step x0 x1 xs0 := by
  unfold out0_B_2
  rw [View.read_writes_eq_canon _ _ _ (cover0_B_2 c i a2 h2 a3 h3 a4 h4 a5 h5 hc0 hc1 x0 x1 xs0)]
  unfold kernelRun0_B
  dsimp only
  sl_unfold_words
  rw [View.canon_unit_zero hz2, View.readCov_unit_zero (S := S2x256) _ hz2]
  simp only [View.readAt_eq_ld, h2.read_unread, h3.read_unread, h5.read_unread, View.ld_unit_zero (S := S6x256) hz2,
    View.ld_unit_zero (S := S2x6x2048) hz3, View.ld_unit_zero (S := S2x256) hz2]
  rfl

/-- On the first half the accumulator ends at the step's update of the zero tile it was just reset to. -/
theorem sout_A (c : Dev nD) (i : grid0.Coords) (a2 : Memref sig .tc .vmem S2x6x2048 .f32) (h2 : a2.IsWhole)
    (a3 : Memref sig .tc .vmem S6x256 .f32) (h3 : a3.IsWhole) (a4 : Memref sig .tc .vmem S2x256 .f32) (h4 : a4.IsWhole)
    (a5 : Memref sig .tc .vmem S2x256 .f32) (h5 : a5.IsWhole) (hc0 : cond0_0 i) (hc1 : ¬cond0_1 i)
    (x0 : Vec F S2x6x2048 .f32) (x1 : Vec F S6x256 .f32) :
    sout0_A_0 c i a2 h2 a3 h3 a4 h4 a5 h5 hc0 hc1 x0 x1 = step x0 x1 k0_pay2 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S2x256) hz2, View.readCov_unit_zero (S := S2x256) _ hz2]
  simp only [View.readAt_eq_ld, h2.read_unread, h3.read_unread, View.ld_unit_zero (S := S6x256) hz2,
    View.ld_unit_zero (S := S2x6x2048) hz3]
  rfl

end Cert.KernelIdeal.Pieces
end
-- ==== Proof.Laws.lean ====
/-
  The arithmetic on the extended reals that joins the two programs.

  Both compute, for a location `l`, a batch `b` and a sample `n`, the Gaussian weight
  `exp (-2 · ‖loc l − smp b n‖²)` over six coordinates, and sum it over the samples. They differ in three places:
  one squares `loc − smp` and adds the six squares left to right, the other squares `smp − loc` and sums them
  from zero; one multiplies the squared distance by `-2`, the other negates it and divides by `1/2`; one adds
  the samples in two halves of 2048 onto a zero, the other sums all 4096 from zero. Each difference is an identity
  of the extended reals that holds at the infinities too, so no finiteness of the inputs is used.
-/
import Idealize.ShloMosaic.PureOps.Ideal.Laws

noncomputable section

namespace Cert.Kde

open Idealize.ShloMosaic

/-- The pattern `0xC0000000` is the real `-2`. -/
theorem ofBits_neg_two : Ideal.ofBits .f32 0xC0000000#32 = ((-2 : ℝ) : EReal) := by
  simp [Ideal.ofBits, Ideal.ieee, -EReal.coe_mul]; norm_num

/-- The pattern `0x3F000000` is the real `1/2`. -/
theorem ofBits_half : Ideal.ofBits .f32 0x3F000000#32 = ((1 / 2 : ℝ) : EReal) := by
  simp [Ideal.ofBits, Ideal.ieee, -EReal.coe_mul]; norm_num

/-- The square of a difference does not depend on the order of its two terms, on EVERY pair of extended
    reals: for two reals it is `(a − b)² = (b − a)²`; when exactly one term is infinite both differences are
    infinite, of opposite signs, and both squares are `⊤`; when both are infinite the two differences are
    the same infinity (`⊤ − ⊤ = ⊥ − ⊥ = ⊥` by convention, `⊤ − ⊥ = ⊤`, `⊥ − ⊤ = ⊥`) up to sign, and again
    both squares are `⊤`. -/
theorem sq_sub_comm (a b : EReal) : (a - b) * (a - b) = (b - a) * (b - a) := by
  induction a using EReal.rec with
  | bot =>
    induction b using EReal.rec with
    | bot => rfl
    | top => simp
    | coe r => simp
  | top =>
    induction b using EReal.rec with
    | bot => simp
    | top => rfl
    | coe r => simp
  | coe q =>
    induction b using EReal.rec with
    | bot => simp
    | top => simp
    | coe r =>
      rw [← EReal.coe_sub, ← EReal.coe_sub, ← EReal.coe_mul, ← EReal.coe_mul]
      exact congrArg _ (by ring)

/-- Multiplying by `-2` is negating and dividing by `1/2`, on every extended real: the quotient by the
    nonzero real `1/2` is the product with `2`, and a sign moves across a product. -/
theorem scale_eq (x : EReal) :
    x * Ideal.ofBits .f32 0xC0000000#32 = Ideal.div (-x) (Ideal.ofBits .f32 0x3F000000#32) := by
  rw [ofBits_neg_two, ofBits_half, Ideal.div_coe (by norm_num : (1 / 2 : ℝ) ≠ 0)]
  rw [show ((1 / (1 / 2) : ℝ)) = 2 by norm_num, show ((-2 : ℝ) : EReal) = -((2 : ℝ) : EReal) from EReal.coe_neg 2]
  rw [mul_neg, neg_mul]

/-- The squared distance between a location `L` and a sample `S` in six coordinates, the squares of
    `L d − S d` added left to right. -/
def dist2 (L S : Fin 6 → EReal) : EReal :=
  (((((L 0 - S 0) * (L 0 - S 0) + (L 1 - S 1) * (L 1 - S 1)) + (L 2 - S 2) * (L 2 - S 2))
    + (L 3 - S 3) * (L 3 - S 3)) + (L 4 - S 4) * (L 4 - S 4)) + (L 5 - S 5) * (L 5 - S 5)

/-- The Gaussian weight of a sample at a location: `exp (dist2 · (-2))`. -/
def weight (L S : Fin 6 → EReal) : EReal :=
  Ideal.exp (dist2 L S * Ideal.ofBits .f32 0xC0000000#32)

/-- The sum from zero of the squares of `S d − L d` over the six coordinates is that squared distance. -/
theorem sum_sq_eq_dist2 (L S : Fin 6 → EReal) :
    Ideal.ofBits .f32 0x00000000#32 + ∑ d : Fin 6, (S d - L d) * (S d - L d) = dist2 L S := by
  rw [Ideal.ofBits_zero_f32, zero_add, Fin.sum_univ_six, sq_sub_comm (S 0), sq_sub_comm (S 1), sq_sub_comm (S 2),
    sq_sub_comm (S 3), sq_sub_comm (S 4), sq_sub_comm (S 5)]
  rfl

/-- So the weight is the exponential of the negated sum of squares divided by `1/2`. -/
theorem weight_eq (L S : Fin 6 → EReal) :
    Ideal.exp (Ideal.div (-(Ideal.ofBits .f32 0x00000000#32 + ∑ d : Fin 6, (S d - L d) * (S d - L d)))
      (Ideal.ofBits .f32 0x3F000000#32)) = weight L S := by
  rw [sum_sq_eq_dist2, ← scale_eq]
  rfl

/-- A sum over 4096 samples is the sum over the first 2048 plus the sum over the last 2048. -/
theorem sum_halves (f : Fin 4096 → EReal) :
    ∑ n : Fin 4096, f n
      = ∑ k : Fin 2048, f ⟨k.val, by have := k.isLt; omega⟩ + ∑ k : Fin 2048, f ⟨2048 + k.val, by have := k.isLt; omega⟩ := by
  rw [show (∑ n : Fin 4096, f n) = ∑ n : Fin (2048 + 2048), f n from rfl, Fin.sum_univ_add]
  rfl

/-- The accumulation over the two halves, each added onto what was there, starting from zero, is the sum
    from zero over all the samples. -/
theorem acc_halves (f : Fin 4096 → EReal) :
    (Ideal.ofBits .f32 0x00000000#32 + ∑ k : Fin 2048, f ⟨k.val, by have := k.isLt; omega⟩)
        + ∑ k : Fin 2048, f ⟨2048 + k.val, by have := k.isLt; omega⟩
      = Ideal.ofBits .f32 0x00000000#32 + ∑ n : Fin 4096, f n := by
  rw [sum_halves f, add_assoc]

end Cert.Kde

end
-- ==== Proof.Reads.lean ====
/-
  How a tile of the kernel reads its two operands. In one grid step the kernel holds a [6, 256] tile of the
  locations (coordinate-major) and a [2, 6, 2048] tile of the samples. For each coordinate `d` it takes row `d` of
  the first, as a [256] vector spread along the middle axis of a [2, 256, 2048] array, and plane `d` of the second,
  as a [2, 2048] array spread along the same middle axis. Read at (b, r, k) the first is the tile at (d, r) and the
  second the tile at (b, d, k): the two lemmas below, over any element type.
-/
import Idealize.ShloMosaic.Lib.Pipeline.Value
import Idealize.ShloMosaic.Lib.ValueIdx

noncomputable section
namespace Cert.Kde
open Idealize.ShloMosaic Idealize.ShloMosaic.ValueIdx

variable {α : Type}

/-- Row `d` of a [6, 256] tile, spread over [2, 256, 2048] along axes 0 and 2, read at (b, r, k), is the tile
    at (d, r). -/
theorem loc_read (d : Fin 6) (off : Fin 2 → Nat) (hoff : off = ![d.val, 0])
    (v : (⟨2, ![6, 256]⟩ : Shape).Idx → α)
    (h1 : (⟨2, ![6, 256]⟩ : Shape).Slices off ⟨2, ![1, 256]⟩)
    (h2 : (⟨2, ![1, 256]⟩ : Shape).ShapeCasts ⟨1, ![256]⟩)
    (h3 : (⟨1, ![256]⟩ : Shape).ShapeCasts ⟨3, ![1, 256, 1]⟩)
    (h4 : (⟨3, ![1, 256, 1]⟩ : Shape).Broadcasts ⟨3, ![2, 256, 2048]⟩)
    (b : Fin 2) (r : Fin 256) (k : Fin 2048) :
    broadcastTo ⟨3, ![2, 256, 2048]⟩ (shapeCast ⟨3, ![1, 256, 1]⟩ (shapeCast ⟨1, ![256]⟩
      (extractStridedSlice ⟨2, ![1, 256]⟩ off v h1) h2) h3) h4 (ix3 b r k) = v (ix2 d r) := by
  subst hoff
  refine (broadcastTo_apply _ h4 (ix3 b r k) (ix3 (0 : Fin 1) r (0 : Fin 1)) (fun a => ?_)).trans ?_
  · match a with
    | ⟨0, _⟩ => show 0 = if (1 : Nat) = 1 then 0 else _; rw [if_pos rfl]
    | ⟨1, _⟩ => show r.val = if (256 : Nat) = 1 then 0 else r.val; rw [if_neg (by decide)]
    | ⟨2, _⟩ => show 0 = if (1 : Nat) = 1 then 0 else _; rw [if_pos rfl]
  refine (shapeCast_apply _ h3 (ix3 (0 : Fin 1) r (0 : Fin 1)) (ix1 r) ?_).trans ?_
  · rewrite [Shape.rowMajor_val_one, Shape.rowMajor_val_three]
    show r.val = (0 * 256 + r.val) * 1 + 0
    omega
  refine (shapeCast_apply _ h2 (ix1 r) (ix2 (0 : Fin 1) r) ?_).trans ?_
  · rewrite [Shape.rowMajor_val_two, Shape.rowMajor_val_one]
    show 0 * 256 + r.val = r.val
    omega
  exact extractStridedSlice_apply _ v h1 (ix2 (0 : Fin 1) r) (ix2 d r) (fun a => match a with
    | ⟨0, _⟩ => by show d.val = d.val + 0; omega
    | ⟨1, _⟩ => by show r.val = 0 + r.val; omega)

/-- Plane `d` of a [2, 6, 2048] tile, spread over [2, 256, 2048] along axis 1, read at (b, r, k), is the tile
    at (b, d, k). -/
theorem smp_read (d : Fin 6) (off : Fin 3 → Nat) (hoff : off = ![0, d.val, 0])
    (v : (⟨3, ![2, 6, 2048]⟩ : Shape).Idx → α)
    (h1 : (⟨3, ![2, 6, 2048]⟩ : Shape).Slices off ⟨3, ![2, 1, 2048]⟩)
    (h2 : (⟨3, ![2, 1, 2048]⟩ : Shape).ShapeCasts ⟨2, ![2, 2048]⟩)
    (h3 : (⟨2, ![2, 2048]⟩ : Shape).ShapeCasts ⟨3, ![2, 1, 2048]⟩)
    (h4 : (⟨3, ![2, 1, 2048]⟩ : Shape).Broadcasts ⟨3, ![2, 256, 2048]⟩)
    (b : Fin 2) (r : Fin 256) (k : Fin 2048) :
    broadcastTo ⟨3, ![2, 256, 2048]⟩ (shapeCast ⟨3, ![2, 1, 2048]⟩ (shapeCast ⟨2, ![2, 2048]⟩
      (extractStridedSlice ⟨3, ![2, 1, 2048]⟩ off v h1) h2) h3) h4 (ix3 b r k) = v (ix3 b d k) := by
  subst hoff
  refine (broadcastTo_apply _ h4 (ix3 b r k) (ix3 b (0 : Fin 1) k) (fun a => ?_)).trans ?_
  · match a with
    | ⟨0, _⟩ => show b.val = if (2 : Nat) = 1 then 0 else b.val; rw [if_neg (by decide)]
    | ⟨1, _⟩ => show 0 = if (1 : Nat) = 1 then 0 else _; rw [if_pos rfl]
    | ⟨2, _⟩ => show k.val = if (2048 : Nat) = 1 then 0 else k.val; rw [if_neg (by decide)]
  refine (shapeCast_apply _ h3 (ix3 b (0 : Fin 1) k) (ix2 b k) ?_).trans ?_
  · rewrite [Shape.rowMajor_val_two, Shape.rowMajor_val_three]
    show b.val * 2048 + k.val = (b.val * 1 + 0) * 2048 + k.val
    omega
  refine (shapeCast_apply _ h2 (ix2 b k) (ix3 b (0 : Fin 1) k) ?_).trans ?_
  · rewrite [Shape.rowMajor_val_three, Shape.rowMajor_val_two]
    show (b.val * 1 + 0) * 2048 + k.val = b.val * 2048 + k.val
    omega
  exact extractStridedSlice_apply _ v h1 (ix3 b (0 : Fin 1) k) (ix3 b d k) (fun a => match a with
    | ⟨0, _⟩ => by show b.val = 0 + b.val; omega
    | ⟨1, _⟩ => by show d.val = d.val + 0; omega
    | ⟨2, _⟩ => by show k.val = 0 + k.val; omega)

end Cert.Kde
end
-- ==== Proof.Point.lean ====
/-
  One grid step's update of the accumulator, read at an index over the extended reals.

  At batch `b` and row `r` of the tile the step adds to the accumulator the sum, over the tile's 2048 samples
  `k`, of `exp (‖loc r − smp b k‖² · (-2))`, where `loc r` is column `r` of the [6, 256] tile of locations and `smp b k` the
  six entries (b, ·, k) of the [2, 6, 2048] tile of samples: the squared distance is the six squared differences
  added left to right, as the body spells them.
-/
import proofs.«117962_j22952305230422_2_alg».proof.Proof.Pieces
import proofs.«117962_j22952305230422_2_alg».proof.Proof.Laws
import proofs.«117962_j22952305230422_2_alg».proof.Proof.Reads
import Idealize.ShloMosaic.Lib.ValueIdx
import Idealize.ShloMosaic.PureOps.Ideal.Laws

noncomputable section
open Idealize.ShloMosaic Idealize.ShloMosaic.TcCoe Idealize.SL.Sem Idealize.ShloMosaic.ValueIdx

namespace Cert.KernelIdeal.Point
open Cert.KernelIdeal Cert.KernelIdeal.Gen Cert.KernelIdeal.Pieces

/-- A square of a difference of two arrays, at an index where the two are known. -/
theorem sq_at {S : Shape} {A B : FVec Ideal S .f32} {i : S.Idx} {a b : EReal} (ha : A i = a) (hb : B i = b) :
    mulf (subf A B) (subf A B) i = (a - b) * (a - b) := by
  subst ha hb; rfl

/-- A sum of two arrays, at an index where the two are known. -/
theorem add_at {S : Shape} {X Y : FVec Ideal S .f32} {i : S.Idx} {x y : EReal} (hx : X i = x) (hy : Y i = y) :
    addf X Y i = x + y := by
  subst hx hy; rfl

/-- The exponential of an array scaled by a constant, at an index where the array is known. -/
theorem exp_scale_at {S : Shape} {X : FVec Ideal S .f32} {i : S.Idx} {x : EReal} (w : BitVec 32) (hx : X i = x) :
    exp (mulf X (broadcast S (Scalar.ofBits .f32 w))) i = Ideal.exp (x * Ideal.ofBits .f32 w) := by
  subst hx; rfl

/-- Coordinate `d` of the locations, as the body spreads it over (batch, row, sample), at (b, r, k): the
    tile at (d, r). -/
theorem loc_at (x1 : Vec Ideal S6x256 .f32) (d : Fin 6) (off : Fin 2 → Nat) (hoff : off = ![d.val, 0])
    (h1 : S6x256.Slices off S1x256) (b : Fin 2) (r : Fin 256) (k : Fin 2048) :
    broadcastTo S2x256x2048 (shapeCast S1x256x1 (shapeCast S256 (extractStridedSlice S1x256 off (k0_pay3 x1) h1)
      Facts₀.shapeCasts_S1x256_S256) Facts₀.shapeCasts_S256_S1x256x1) Facts₀.broadcasts_S1x256x1_S2x256x2048 (ix3 b r k)
      = x1 (ix2 d r) :=
  (Cert.Kde.loc_read d off hoff (k0_pay3 x1) h1 _ _ _ b r k).trans (congrFun (shapeCast_self x1 _) _)

/-- Coordinate `d` of the samples, as the body spreads it over (batch, row, sample), at (b, r, k): the tile
    at (b, d, k). -/
theorem smp_at (x0 : Vec Ideal S2x6x2048 .f32) (d : Fin 6) (off : Fin 3 → Nat) (hoff : off = ![0, d.val, 0])
    (h1 : S2x6x2048.Slices off S2x1x2048) (b : Fin 2) (r : Fin 256) (k : Fin 2048) :
    broadcastTo S2x256x2048 (shapeCast S2x1x2048 (shapeCast S2x2048 (extractStridedSlice S2x1x2048 off (k0_pay4 x0) h1)
      Facts₀.shapeCasts_S2x1x2048_S2x2048) Facts₀.shapeCasts_S2x2048_S2x1x2048) Facts₀.broadcasts_S2x1x2048_S2x256x2048 (ix3 b r k)
      = x0 (ix3 b d k) :=
  (Cert.Kde.smp_read d off hoff (k0_pay4 x0) h1 _ _ _ b r k).trans (congrFun (shapeCast_self x0 _) _)

/-- The step at (b, r): the earlier contents plus the tile's sum of Gaussian weights — the lane sum over the
    2048 samples, each term the exponential of the scaled chain of six squares. -/
theorem step_apply (x0 : Vec Ideal S2x6x2048 .f32) (x1 : Vec Ideal S6x256 .f32) (acc : Vec Ideal S2x256 .f32)
    (b : Fin 2) (r : Fin 256) :
    step x0 x1 acc (ix2 b r)
      = acc (ix2 b r) + ∑ k : Fin 2048, Cert.Kde.weight (fun d => x1 (ix2 d r)) (fun d => x0 (ix3 b d k)) := by
  unfold step k0_pay1 k0_pay5
  dsimp only
  refine (congrFun (shapeCast_self _ _) _).trans ?_
  refine (addf_apply _ _ _).trans ?_
  refine congrArg (acc (ix2 b r) + ·) ?_
  refine (Ideal.multiReduction_add_single _ _ Facts₀.reduces_S2x256x2048_S2x256 _ _ (ix2 b r)).trans ?_
  refine Finset.sum_congr rfl fun k _ => ?_
  have e : Facts₀.reduces_S2x256x2048_S2x256.lift (ix2 b r) k = ix3 b r k :=
    funext fun a => Fin.ext (by match a with | ⟨0, _⟩ => rfl | ⟨1, _⟩ => rfl | ⟨2, _⟩ => rfl)
  refine (congrArg _ e).trans ?_
  unfold Cert.Kde.weight Cert.Kde.dist2
  exact exp_scale_at _ (add_at (add_at (add_at (add_at (add_at
    (sq_at (loc_at x1 0 _ rfl _ b r k) (smp_at x0 0 _ rfl _ b r k))
    (sq_at (loc_at x1 1 _ rfl _ b r k) (smp_at x0 1 _ rfl _ b r k)))
    (sq_at (loc_at x1 2 _ rfl _ b r k) (smp_at x0 2 _ rfl _ b r k)))
    (sq_at (loc_at x1 3 _ rfl _ b r k) (smp_at x0 3 _ rfl _ b r k)))
    (sq_at (loc_at x1 4 _ rfl _ b r k) (smp_at x0 4 _ rfl _ b r k)))
    (sq_at (loc_at x1 5 _ rfl _ b r k) (smp_at x0 5 _ rfl _ b r k)))

end Cert.KernelIdeal.Point
end
-- ==== Proof.Spec.lean ====
/-
  The function both programs compute, index by index, over the extended reals.

  With `smp : [2, 4096, 6]` the samples (batch, sample, coordinate) and `loc : [2048, 6]` the locations, the
  un-normalised density at location `l` for batch `b` is the sum from zero, over the 4096 samples `n`, of the
  Gaussian weight `exp (‖loc l − smp b n‖² · (-2))`; the result at (0, l, b) is that density divided by the sum
  from zero of the densities of batch `b` over all 2048 locations.
-/
import proofs.«117962_j22952305230422_2_alg».proof.Proof.Laws
import Idealize.ShloMosaic.Lib.ValueIdx

noncomputable section

namespace Cert.Kde

open Idealize.ShloMosaic Idealize.ShloMosaic.ValueIdx

/-- The Gaussian weight of sample `n` of batch `b` at location `l`. -/
def W (x0 : (⟨3, ![2, 4096, 6]⟩ : Shape).Idx → EReal) (x1 : (⟨2, ![2048, 6]⟩ : Shape).Idx → EReal)
    (b : Fin 2) (l : Fin 2048) (n : Fin 4096) : EReal :=
  weight (fun d => x1 (ix2 l d)) (fun d => x0 (ix3 b n d))

/-- The un-normalised density at location `l` for batch `b`: the weights summed from zero over the samples. -/
def dens (x0 : (⟨3, ![2, 4096, 6]⟩ : Shape).Idx → EReal) (x1 : (⟨2, ![2048, 6]⟩ : Shape).Idx → EReal)
    (l : Fin 2048) (b : Fin 2) : EReal :=
  Ideal.ofBits .f32 0x00000000#32 + ∑ n : Fin 4096, W x0 x1 b l n

/-- The same density as an accumulation in two halves of the samples: zero plus the first 2048 weights, plus
    the last 2048. -/
def acc2 (x0 : (⟨3, ![2, 4096, 6]⟩ : Shape).Idx → EReal) (x1 : (⟨2, ![2048, 6]⟩ : Shape).Idx → EReal)
    (b : Fin 2) (l : Fin 2048) : EReal :=
  (Ideal.ofBits .f32 0x00000000#32 + ∑ k : Fin 2048, W x0 x1 b l ⟨k.val, by have := k.isLt; omega⟩)
    + ∑ k : Fin 2048, W x0 x1 b l ⟨2048 + k.val, by have := k.isLt; omega⟩

/-- The two-halves accumulation is the sum over all samples. -/
theorem acc2_eq (x0 : (⟨3, ![2, 4096, 6]⟩ : Shape).Idx → EReal) (x1 : (⟨2, ![2048, 6]⟩ : Shape).Idx → EReal)
    (b : Fin 2) (l : Fin 2048) : acc2 x0 x1 b l = dens x0 x1 l b :=
  acc_halves (W x0 x1 b l)

/-- The normalised result at (0, l, b): the density over the batch's total. -/
def pdf (x0 : (⟨3, ![2, 4096, 6]⟩ : Shape).Idx → EReal) (x1 : (⟨2, ![2048, 6]⟩ : Shape).Idx → EReal) :
    (⟨3, ![1, 2048, 2]⟩ : Shape).Idx → EReal := fun i =>
  Ideal.div (dens x0 x1 ⟨(i 1).val, (i 1).isLt⟩ ⟨(i 2).val, (i 2).isLt⟩)
    (Ideal.ofBits .f32 0x00000000#32 + ∑ l : Fin 2048, dens x0 x1 l ⟨(i 2).val, (i 2).isLt⟩)

end Cert.Kde

end
-- ==== Proof.Array.lean ====
/-
  From the grid's steps to the whole [2, 2048] array of densities the kernel leaves.

  The grid has 16 steps, step `t` working on location tile `t / 2` (256 locations) and sample half `t % 2` (2048
  samples). The operands the steps read are the arguments transposed: samples as (batch, coordinate, sample),
  locations as (coordinate, location). An odd step accumulates onto what the even step before it left, which itself
  started from zero; so after an odd step the result tile holds, at (b, r), zero plus the weights of the first 2048
  samples plus the weights of the last 2048, all at location `256 · (t / 2) + r`. The odd steps are exactly those
  that write their tile back, and their tiles cover the array: the array ends at the two-halves accumulation.
-/
import proofs.«117962_j22952305230422_2_alg».proof.Proof.Point
import proofs.«117962_j22952305230422_2_alg».proof.Proof.Spec
import Idealize.ShloMosaic.Lib.Pipeline.Value
import Idealize.ShloMosaic.Lib.StableHlo.Run
import Idealize.ShloMosaic.Lib.Tactic

noncomputable section
open Idealize.ShloMosaic Idealize.ShloMosaic.TcCoe Idealize.SL.Sem Idealize.ShloMosaic.ValueIdx
open Idealize.ShloMosaic.Pipeline (Dat)

namespace Cert.KernelIdeal.Out
open Cert.KernelIdeal Cert.KernelIdeal.Gen Cert.KernelIdeal.Pieces Cert.KernelIdeal.Point

variable (m : (ℓ : Loc nD τ sig) → Buf (Elt Ideal) ℓ) (ρ : Dev nD → PrngReg)

/-- Which block of each array a step works on: the sample tile moves with `t % 2`, the location tile and the
    result tile with `t / 2` — decided over the 16 steps. -/
theorem idx_facts : ∀ t : Fin cfg0.N, win0_0.index t (0 : Fin 3) = 0 ∧ win0_0.index t (1 : Fin 3) = 0
    ∧ win0_0.index t (2 : Fin 3) = t.val % 2
    ∧ win0_1.index t (0 : Fin 2) = 0 ∧ win0_1.index t (1 : Fin 2) = t.val / 2
    ∧ win0_2.index t (0 : Fin 2) = 0 ∧ win0_2.index t (1 : Fin 2) = t.val / 2 :=
  (by decide +kernel : ∀ t : Fin grid0.N, _)

/-- The grid finds the samples transposed to (batch, coordinate, sample), -/
theorem V_smp (c : Dev nD) : (V m c main_v0 : S2x6x4096.Idx → EReal)
    = transpose S2x6x4096 [0, 2, 1] (m ((c : Thread nD τ).loc main_arg0)) Facts₀.transposes_S2x4096x6_S2x6x4096_0_2_1 := by
  show StableHlo.after hostOps0 (fun b => m (c, b)) (Proc.devRef .tc main_v0) = _
  after_results

/-- and the locations transposed to (coordinate, location). -/
theorem V_loc (c : Dev nD) : (V m c main_v1 : S6x2048.Idx → EReal)
    = transpose S6x2048 [1, 0] (m ((c : Thread nD τ).loc main_arg1)) Facts₀.transposes_S2048x6_S6x2048_1_0 := by
  show StableHlo.after hostOps0 (fun b => m (c, b)) (Proc.devRef .tc main_v1) = _
  after_results

/-- Entry (b, d, n) of the transposed samples is the argument's (b, n, d). -/
theorem V_smp_apply (c : Dev nD) (b : Fin 2) (d : Fin 6) (n : Fin 4096) :
    V m c main_v0 (ix3 b d n) = m ((c : Thread nD τ).loc main_arg0) (ix3 b n d) :=
  (congrFun (V_smp m c) _).trans (transpose_apply _ _ _ (ix3 b d n) (ix3 b n d) (fun a => match a with
    | ⟨0, _⟩ => rfl
    | ⟨1, _⟩ => rfl
    | ⟨2, _⟩ => rfl))

/-- Entry (d, l) of the transposed locations is the argument's (l, d). -/
theorem V_loc_apply (c : Dev nD) (d : Fin 6) (l : Fin 2048) :
    V m c main_v1 (ix2 d l) = m ((c : Thread nD τ).loc main_arg1) (ix2 l d) :=
  (congrFun (V_loc m c) _).trans (transpose_apply _ _ _ (ix2 d l) (ix2 l d) (fun a => match a with
    | ⟨0, _⟩ => rfl
    | ⟨1, _⟩ => rfl))

/-- The sample tile of step `t` at (b, d, k): the argument at sample `2048 · (t % 2) + k`. -/
theorem smp_blk (c : Dev nD) (t : Fin cfg0.N) (b : Fin 2) (d : Fin 6) (k : Fin 2048) :
    (iblk m c 0 t : Vec Ideal S2x6x2048 .f32) (ix3 b d k)
      = m ((c : Thread nD τ).loc main_arg0) (ix3 b ⟨(t.val % 2) * 2048 + k.val, by have := k.isLt; omega⟩ d) := by
  obtain ⟨e00, e01, e02, -, -, -, -⟩ := idx_facts t
  refine Eq.trans ?_ (V_smp_apply m c b d _)
  show V m c main_v0 (((cfg0.win 0).blk t).view.emb (ix3 b d k)) = _
  refine congrArg _ (funext fun a => Fin.ext ?_)
  match a with
  | ⟨0, _⟩ => show win0_0.index t (0 : Fin 3) * 2 + 1 * b.val = b.val; omega
  | ⟨1, _⟩ => show win0_0.index t (1 : Fin 3) * 6 + 1 * d.val = d.val; omega
  | ⟨2, _⟩ => show win0_0.index t (2 : Fin 3) * 2048 + 1 * k.val = (t.val % 2) * 2048 + k.val; omega

/-- The location tile of step `t` at (d, r): the argument at location `256 · (t / 2) + r`. -/
theorem loc_blk (c : Dev nD) (t : Fin cfg0.N) (d : Fin 6) (r : Fin 256) :
    (iblk m c 1 t : Vec Ideal S6x256 .f32) (ix2 d r)
      = m ((c : Thread nD τ).loc main_arg1) (ix2 ⟨(t.val / 2) * 256 + r.val, by
          have := r.isLt; have : t.val < 16 := lt_of_lt_of_eq t.isLt (show cfg0.N = 16 from N_0); omega⟩ d) := by
  obtain ⟨-, -, -, e10, e11, -, -⟩ := idx_facts t
  refine Eq.trans ?_ (V_loc_apply m c d _)
  show V m c main_v1 (((cfg0.win 1).blk t).view.emb (ix2 d r)) = _
  refine congrArg _ (funext fun a => Fin.ext ?_)
  match a with
  | ⟨0, _⟩ => show win0_1.index t (0 : Fin 2) * 6 + 1 * d.val = d.val; omega
  | ⟨1, _⟩ => show win0_1.index t (1 : Fin 2) * 256 + 1 * r.val = (t.val / 2) * 256 + r.val; omega

/-- The step before. -/
def prev (t : Fin cfg0.N) : Fin cfg0.N := ⟨t.val - 1, Nat.lt_of_le_of_lt (Nat.sub_le _ _) t.isLt⟩

/-- After an odd step the result tile holds the step's update of the even step before it, which started
    from the zero tile: no induction over the grid is needed, an even step forgets what came before. -/
theorem out_odd (c : Dev nD) (t : Fin cfg0.N) (h1 : t.val % 2 = 1) :
    (outsAt0 m c t.val t.isLt).1
      = step (iblk m c 0 t) (iblk m c 1 t) (step (iblk m c 0 (prev t)) (iblk m c 1 (prev t)) (k0_pay2 (F := Ideal))) := by
  have h0 : ¬t.val % 2 = 0 := by omega
  have hA := outsAt0_A m c (prev t) (by show (t.val - 1) % 2 = 0; omega) (by show ¬(t.val - 1) % 2 = 1; omega)
  rw [outsAt0_B m c t h0 h1]
  dsimp only
  rw [out_B]
  refine congrArg (step _ _) ?_
  show (outsAt0 m c (prev t).val (prev t).isLt).2 = _
  rw [hA]
  dsimp only
  exact sout_A (F := Ideal) ..

/-- The zero tile, at an index. -/
theorem zero_at (j : S2x256.Idx) : k0_pay2 (F := Ideal) j = Ideal.ofBits .f32 0x00000000#32 := by
  unfold k0_pay2
  exact congrFun (shapeCast_self _ _) _

/-- The array of densities, each as the two-halves accumulation. -/
def O (c : Dev nD) : Buf (Elt Ideal) ((c : Thread nD τ).loc main_v2) := fun (j : S2x2048.Idx) =>
  Cert.Kde.acc2 (m ((c : Thread nD τ).loc main_arg0)) (m ((c : Thread nD τ).loc main_arg1))
    ⟨(j 0).val, (j 0).isLt⟩ ⟨(j 1).val, (j 1).isLt⟩

/-- What an odd step writes back is its block of that array. -/
theorem flushed_eq (c : Dev nD) (t : Fin cfg0.N) (h1 : t.val % 2 = 1) :
    (dats m 0 c).flushed 2 t = ((cfg0.win 2).blk t).view.read (Elt Ideal) (O m c) := by
  have hN : t.val < 16 := lt_of_lt_of_eq t.isLt (show cfg0.N = 16 from N_0)
  obtain ⟨-, -, -, -, -, e20, e21⟩ := idx_facts t
  show (cfg0.win 2).cut (grid0.coords t) ((dats m 0 c).after 2 t) = _
  rw [after0_2, out_odd m c t h1]
  funext y
  obtain ⟨b, r, rfl⟩ : ∃ (b : Fin 2) (r : Fin 256), y = ix2 b r := ⟨y 0, y 1, eq_ix2 y⟩
  have hemb : ((cfg0.win 2).blk t).view.emb (ix2 b r)
      = ix2 b (⟨(t.val / 2) * 256 + r.val, by have := r.isLt; omega⟩ : Fin 2048) :=
    funext fun a => Fin.ext (by
      match a with
      | ⟨0, _⟩ => show win0_2.index t (0 : Fin 2) * 2 + 1 * b.val = b.val; omega
      | ⟨1, _⟩ => show win0_2.index t (1 : Fin 2) * 256 + 1 * r.val = (t.val / 2) * 256 + r.val; omega)
  show step (iblk m c 0 t) (iblk m c 1 t) (step (iblk m c 0 (prev t)) (iblk m c 1 (prev t)) (k0_pay2 (F := Ideal))) (ix2 b r)
    = O m c (((cfg0.win 2).blk t).view.emb (ix2 b r))
  rw [hemb]
  refine (step_apply _ _ _ b r).trans ?_
  refine (congrArg (· + _) (step_apply _ _ _ b r)).trans ?_
  show _ = Cert.Kde.acc2 (m ((c : Thread nD τ).loc main_arg0)) (m ((c : Thread nD τ).loc main_arg1)) b
    (⟨(t.val / 2) * 256 + r.val, by have := r.isLt; omega⟩ : Fin 2048)
  unfold Cert.Kde.acc2 Cert.Kde.W
  refine congrArg₂ (· + ·) (congrArg₂ (· + ·) ?_ (Finset.sum_congr rfl fun k _ => ?_)) (Finset.sum_congr rfl fun k _ => ?_)
  · exact zero_at _
  · refine congrArg₂ Cert.Kde.weight (funext fun d => ?_) (funext fun d => ?_)
    · exact (loc_blk m c (prev t) d r).trans (congrArg (fun l => m ((c : Thread nD τ).loc main_arg1) (ix2 l d))
        (Fin.ext (by show (t.val - 1) / 2 * 256 + r.val = t.val / 2 * 256 + r.val; omega)))
    · exact (smp_blk m c (prev t) b d k).trans (congrArg (fun n => m ((c : Thread nD τ).loc main_arg0) (ix3 b n d))
        (Fin.ext (by show (t.val - 1) % 2 * 2048 + k.val = k.val; omega)))
  · refine congrArg₂ Cert.Kde.weight (funext fun d => ?_) (funext fun d => ?_)
    · exact loc_blk m c t d r
    · exact (smp_blk m c t b d k).trans (congrArg (fun n => m ((c : Thread nD τ).loc main_arg0) (ix3 b n d))
        (Fin.ext (by show t.val % 2 * 2048 + k.val = 2048 + k.val; omega)))

/-- An index is in step `t`'s result block iff each coordinate is in the block's range. -/
theorem mem_blk (t : Fin cfg0.N) (i : S2x2048.Idx) :
    i ∈ ((cfg0.win 2).blk t).view.set ↔ ∀ a : Fin 2, win0_2.index t a * S2x256.size a ≤ (i a).val
      ∧ (i a).val < win0_2.index t a * S2x256.size a + S2x256.size a := by
  show i ∈ ((View.whole main_v2).slice (win0_2.rect t)).set ↔ _
  rw [View.set_slice_whole, Rect.mem_set_unit]
  exact Iff.rfl

/-- Every index (b, l) lies in the block written back by the odd step `2 · (l / 256) + 1`. -/
theorem cover (i : S2x2048.Idx) :
    ∃ t : Fin cfg0.N, (cfg0.win 2).flush t = true ∧ i ∈ ((cfg0.win 2).blk t).view.set := by
  have hi0 : (i 0).val < 2 := (i 0).isLt
  have hi1 : (i 1).val < 2048 := (i 1).isLt
  have hN : cfg0.N = 16 := N_0
  obtain ⟨t, ht⟩ : ∃ t : Fin cfg0.N, t.val = 2 * ((i 1).val / 256) + 1 := ⟨⟨2 * ((i 1).val / 256) + 1, by rw [hN]; omega⟩, rfl⟩
  obtain ⟨-, -, -, -, -, e20, e21⟩ := idx_facts t
  refine ⟨t, (flush0_2 t).mpr (by omega), ?_⟩
  rw [mem_blk]
  intro a
  match a with
  | ⟨0, _⟩ =>
    show win0_2.index t (0 : Fin 2) * 2 ≤ (i 0).val ∧ (i 0).val < win0_2.index t (0 : Fin 2) * 2 + 2
    omega
  | ⟨1, _⟩ =>
    show win0_2.index t (1 : Fin 2) * 256 ≤ (i 1).val ∧ (i 1).val < win0_2.index t (1 : Fin 2) * 256 + 256
    omega

/-- So the array ends at the two-halves accumulation everywhere. -/
theorem final (c : Dev nD) : (dats m 0 c).arrAt 2 cfg0.N = O m c :=
  (dats m 0 c).arrAt_eq_of_cover 2 (O m c) (fun t hf => flushed_eq m c t ((flush0_2 t).mp hf)) cover

end Cert.KernelIdeal.Out
end
-- ==== Proof.Tail.lean ====
/-
  What the kernel's program does to its [2, 2048] array of densities after the grid: it transposes it to
  [2048, 2], sums each batch's column over the 2048 locations from zero, divides every entry by its column's sum,
  and adds a leading unit axis. Read at (0, l, b) the result is the array at (b, l) divided by zero plus the sum over
  `k` of the array at (b, k).
-/
import proofs.«117962_j22952305230422_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic
import Idealize.ShloMosaic.PureOps.Ideal.Laws

noncomputable section
open Idealize.ShloMosaic Idealize.ShloMosaic.TcCoe Idealize.SL.Sem Idealize.ShloMosaic.ValueIdx
open Idealize.ShloMosaic.Pipeline (Dat)

namespace Cert.KernelIdeal.Tail
open Cert.KernelIdeal Cert.KernelIdeal.Gen

variable (m : (ℓ : Loc nD τ sig) → Buf (Elt Ideal) ℓ) (ρ : Dev nD → PrngReg)

/-- The normalisation, as one function of the array the grid leaves. -/
def tailOf (T : FVec Ideal S2x2048 .f32) : FVec Ideal S1x2048x2 .f32 :=
  broadcastInDim S1x2048x2 ![1, 2] Facts₀.bcast_S2048x2_S1x2048x2_1_2
    (Host.divf (F := Ideal) (transpose S2048x2 [1, 0] T Facts₀.transposes_S2x2048_S2048x2_1_0)
      (broadcastInDim S2048x2 ![0, 1] Facts₀.bcast_S1x2_S2048x2_0_1
        (broadcastInDim S1x2 ![1] Facts₀.bcast_S2_S1x2_1
          (Host.reduceAdd (F := Ideal) (transpose S2048x2 [1, 0] T Facts₀.transposes_S2x2048_S2048x2_1_0)
            (constant (F := Ideal) S_ .f32 0x00000000#32) Facts₀.reducesTo_S2048x2_S2_d0 Facts₀.h_S_))))

/-- The program's result is that function of the array the grid leaves. -/
theorem tail_eq (c : Dev nD) (T : Buf (Elt Ideal) ((c : Thread nD τ).loc main_v2))
    (hT : (dats m 0 c).arrAt 2 cfg0.N = T) :
    Pipeline.afterTail₀ cfgs (dats m) 0 (V0 m) [hostOps1] c main_v8 = tailOf T := by
  have e : Pipeline.withArrays (cfgs 0).spec c (V0 m c) (fun w => (dats m 0 c).arrAt w (cfgs 0).N) (Proc.devRef .tc main_v2) = T :=
    (Pipeline.withArrays_arr spec0 launch0.win.arr_inj c _ _ 2).trans hT
  unfold Pipeline.afterTail₀
  show StableHlo.after hostOps1 _ (Proc.devRef .tc main_v8) = _
  after_results
  rw [e]
  rfl

/-- A column of a [2048, 2] array summed from zero over its 2048 rows. -/
theorem col_sum (Y : FVec Ideal S2048x2 .f32) (b : Fin 2) :
    Host.reduceAdd (F := Ideal) Y (constant (F := Ideal) S_ .f32 0x00000000#32) Facts₀.reducesTo_S2048x2_S2_d0 Facts₀.h_S_ (ix1 b)
      = Ideal.ofBits .f32 0x00000000#32 + ∑ k : Fin 2048, Y (ix2 k b) := by
  simp only [Host.reduceAdd, Ideal.hostReduceAdd_def]
  rw [Ideal.hostReduceAdd_single Facts₀.reducesTo_S2048x2_S2_d0 (by decide)]
  refine congrArg₂ (· + ·) rfl (Finset.sum_congr rfl fun k _ => ?_)
  exact congrArg Y (funext fun a => Fin.ext (by match a with | ⟨0, _⟩ => rfl | ⟨1, _⟩ => rfl))

/-- The normalisation at (0, l, b): entry (b, l) over the sum from zero of row `b`. -/
theorem tailOf_apply (T : FVec Ideal S2x2048 .f32) (i : S1x2048x2.Idx) :
    tailOf T i = Ideal.div (T (ix2 (⟨(i 2).val, (i 2).isLt⟩ : Fin 2) (⟨(i 1).val, (i 1).isLt⟩ : Fin 2048)))
      (Ideal.ofBits .f32 0x00000000#32 + ∑ k : Fin 2048, T (ix2 (⟨(i 2).val, (i 2).isLt⟩ : Fin 2) k)) := by
  unfold tailOf
  refine (broadcastInDim_apply _ _ _ i (ix2 (⟨(i 1).val, (i 1).isLt⟩ : Fin 2048) (⟨(i 2).val, (i 2).isLt⟩ : Fin 2)) (fun a => match a with
    | ⟨0, _⟩ => by show (i 1).val = if (2048 : Nat) = 1 then 0 else (i 1).val; rw [if_neg (by decide)]
    | ⟨1, _⟩ => by show (i 2).val = if (2 : Nat) = 1 then 0 else (i 2).val; rw [if_neg (by decide)])).trans ?_
  show Ideal.div _ _ = _
  refine congrArg₂ Ideal.div ?_ ?_
  · exact transpose_apply _ _ _ _ (ix2 (⟨(i 2).val, (i 2).isLt⟩ : Fin 2) (⟨(i 1).val, (i 1).isLt⟩ : Fin 2048)) (fun a => match a with
      | ⟨0, _⟩ => rfl
      | ⟨1, _⟩ => rfl)
  · refine (broadcastInDim_apply _ _ _ _ (ix2 (0 : Fin 1) (⟨(i 2).val, (i 2).isLt⟩ : Fin 2)) (fun a => match a with
      | ⟨0, _⟩ => by show 0 = if (1 : Nat) = 1 then 0 else _; rw [if_pos rfl]
      | ⟨1, _⟩ => by show (i 2).val = if (2 : Nat) = 1 then 0 else (i 2).val; rw [if_neg (by decide)])).trans ?_
    refine (broadcastInDim_apply _ _ _ _ (ix1 (⟨(i 2).val, (i 2).isLt⟩ : Fin 2)) (fun a => match a with
      | ⟨0, _⟩ => by show (i 2).val = if (2 : Nat) = 1 then 0 else (i 2).val; rw [if_neg (by decide)])).trans ?_
    refine (col_sum _ _).trans ?_
    refine congrArg₂ (· + ·) rfl (Finset.sum_congr rfl fun k _ => ?_)
    exact transpose_apply _ _ _ _ (ix2 (⟨(i 2).val, (i 2).isLt⟩ : Fin 2) k) (fun a => match a with
      | ⟨0, _⟩ => rfl
      | ⟨1, _⟩ => rfl)

end Cert.KernelIdeal.Tail
end
-- ==== Proof.Result.lean ====
/-
  The kernel's program ends with its result at the specified function of its two arguments.

  The grid leaves the [2, 2048] array of densities, each accumulated in two halves of the samples; the lines
  after the grid normalise it. Entry by entry the two-halves accumulation is the sum over all 4096 samples, so the
  normalised array is the specification's `pdf`.
-/
import proofs.«117962_j22952305230422_2_alg».proof.Proof.Array
import proofs.«117962_j22952305230422_2_alg».proof.Proof.Tail
import proofs.«117962_j22952305230422_2_alg».proof.Proof.Spec

noncomputable section
open Idealize.ShloMosaic Idealize.ShloMosaic.TcCoe Idealize.SL.Sem Idealize.ShloMosaic.ValueIdx
open Idealize.ShloMosaic.Pipeline (Dat)

namespace Cert.KernelIdeal.Result
open Cert.KernelIdeal Cert.KernelIdeal.Gen

variable (m : (ℓ : Loc nD τ sig) → Buf (Elt Ideal) ℓ) (ρ : Dev nD → PrngReg)

/-- The program's result array, after the lines that follow the grid, is the normalised density of the
    arguments. -/
theorem result_eq (c : Dev nD) :
    Pipeline.afterTail₀ cfgs (dats m) 0 (V0 m) [hostOps1] c main_v8
      = Cert.Kde.pdf (m ((c : Thread nD τ).loc main_arg0)) (m ((c : Thread nD τ).loc main_arg1)) := by
  refine (Tail.tail_eq m c (Out.O m c) (Out.final m c)).trans (funext fun i => ?_)
  refine (Tail.tailOf_apply _ i).trans ?_
  simp only [Out.O, Cert.Kde.acc2_eq]
  rfl

/-- Every weakly fair execution of the kernel's program ends with the result at the normalised density and the
    arguments as they were. -/
theorem run : θ_run defs (onTc (τ := τ) (main (F := Ideal))) ⟨m, fun _ => 0, ρ⟩ fun r => ∀ c : Dev nD,
      r.2.mem ((c : Thread nD τ).loc main_v8)
        = Cert.Kde.pdf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result
end
-- ==== Proof.RefSide.lean ====
/-
  The reference computes the specified function.

  It spreads the samples and the locations over [2048, 2, 4096, 6], subtracts (sample minus location), squares,
  sums the six coordinates from zero, negates, divides by `1/2`, exponentiates, sums the 4096 samples from zero —
  the density at (location, batch) — then sums the densities over the 2048 locations from zero and divides each
  density by its batch's total. Read index by index, the inner part is the Gaussian weight by the laws on the
  squared difference and on the scaling, and the rest is the specification's own wording.
-/
import proofs.«117962_j22952305230422_2_alg».proof.Proof.Gen.ReferenceIdeal.Run
import proofs.«117962_j22952305230422_2_alg».proof.Proof.Gen.ReferenceIdeal.Read
import proofs.«117962_j22952305230422_2_alg».proof.Proof.Spec
import Idealize.ShloMosaic.Lib.ValueIdx

noncomputable section
open Idealize.ShloMosaic Idealize.ShloMosaic.TcCoe Idealize.SL.Sem Idealize.ShloMosaic.ValueIdx

namespace Cert.ReferenceIdeal.RefValue
open Cert.ReferenceIdeal Cert.ReferenceIdeal.Gen Cert.ReferenceIdeal.Read

/-- The reference's squared difference at (l, b, n, d): sample (b, n, d) minus location (l, d), squared. -/
theorem sq_term (x0 : (⟨S2x4096x6, .f32⟩ : BufTy).Contents (Elt Ideal)) (x1 : (⟨S2048x6, .f32⟩ : BufTy).Contents (Elt Ideal))
    (l : Fin 2048) (b : Fin 2) (n : Fin 4096) (d : Fin 6) :
    val_main_v5 (F := Ideal) x0 x1 (idx_main_v6 (idx_main_v11 (ix2 l b) n) d)
      = (x0 (ix3 b n d) - x1 (ix2 l d)) * (x0 (ix3 b n d) - x1 (ix2 l d)) := by
  have e0 : idx_main_v0 (idx_main_v2 (idx_main_v6 (idx_main_v11 (ix2 l b) n) d)) = ix3 b n d :=
    funext fun a => Fin.ext (by match a with | ⟨0, _⟩ => rfl | ⟨1, _⟩ => rfl | ⟨2, _⟩ => rfl)
  have e1 : idx_main_v1 (idx_main_v3 (idx_main_v6 (idx_main_v11 (ix2 l b) n) d)) = ix2 l d :=
    funext fun a => Fin.ext (by match a with | ⟨0, _⟩ => rfl | ⟨1, _⟩ => rfl)
  rw [val_main_v5_apply, val_main_v4_apply, val_main_v2_apply, val_main_v0_apply, val_main_v3_apply, val_main_v1_apply,
    e0, e1]
  rfl

/-- The reference's sum over the samples at (l, b) is the density there. -/
theorem ref_dens (x0 : (⟨S2x4096x6, .f32⟩ : BufTy).Contents (Elt Ideal)) (x1 : (⟨S2048x6, .f32⟩ : BufTy).Contents (Elt Ideal))
    (l : Fin 2048) (b : Fin 2) :
    val_main_v11 (F := Ideal) x0 x1 (ix2 l b) = Cert.Kde.dens x0 x1 l b := by
  rw [val_main_v11_apply]
  unfold Cert.Kde.dens
  refine congrArg₂ (· + ·) rfl (Finset.sum_congr rfl fun n _ => ?_)
  rw [val_main_v10_apply, val_main_v9_apply, val_main_v8_apply, val_main_cst_0_apply, val_main_v7_apply,
    val_main_v6_apply, val_main_cst_apply]
  simp only [sq_term]
  exact Cert.Kde.weight_eq (fun d => x1 (ix2 l d)) (fun d => x0 (ix3 b n d))

/-- The reference's result is the normalised density. -/
theorem ref_pdf (x0 : (⟨S2x4096x6, .f32⟩ : BufTy).Contents (Elt Ideal)) (x1 : (⟨S2048x6, .f32⟩ : BufTy).Contents (Elt Ideal)) :
    val_main_v16 (F := Ideal) x0 x1 = Cert.Kde.pdf x0 x1 := by
  funext i
  have e14 : idx_main_v14 i = ix2 (⟨(i 1).val, (i 1).isLt⟩ : Fin 2048) (⟨(i 2).val, (i 2).isLt⟩ : Fin 2) :=
    funext fun a => Fin.ext (by match a with | ⟨0, _⟩ => rfl | ⟨1, _⟩ => rfl)
  have e12 : ∀ k : Fin 2048, idx_main_v12 (idx_main_v13 (idx_main_v15 i)) k = ix2 k (⟨(i 2).val, (i 2).isLt⟩ : Fin 2) :=
    fun k => funext fun a => Fin.ext (by
      match a with
      | ⟨0, _⟩ => rfl
      | ⟨1, _⟩ => show (0 * 1 + 0) * 2 + (i 2).val = (i 2).val; omega)
  rw [val_main_v16_apply, val_main_v14_apply, val_main_v15_apply, val_main_v13_apply, val_main_v12_apply,
    val_main_cst_2_apply, e14, ref_dens]
  simp only [e12, ref_dens]
  rfl

end Cert.ReferenceIdeal.RefValue
end
-- ==== Proof.lean ====
/-
  A Gaussian kernel density estimate: for samples `smp : [2, 4096, 6]` and locations `loc : [2048, 6]`, the weight
  `exp (-2 · ‖loc l − smp b n‖²)` summed over the samples `n` and normalised over the locations `l`, per batch `b`.

  The kernel tiles the locations by 256 and the samples by 2048, accumulates each tile's partial sums over the two
  halves of the samples and normalises afterwards; the reference computes the same sums whole. Over the extended
  reals the two agree entry by entry (Proof/Spec.lean states the function; Proof/Laws.lean the three identities that
  join the two spellings, none of which needs the inputs finite): the kernel's program ends at it (Proof/Result.lean,
  over Proof/Pieces.lean, Point.lean, Array.lean and Tail.lean) and so does the reference's (Proof/RefSide.lean).
  The three frames are the generated ones, the reference's its generated run with the result dropped; the kernel's
  idealization rewrote nothing.
-/
import proofs.«117962_j22952305230422_2_alg».proof.Defs
import proofs.«117962_j22952305230422_2_alg».proof.Proof.Gen.Kernel
import proofs.«117962_j22952305230422_2_alg».proof.Proof.Gen.Kernel.Skeleton
import proofs.«117962_j22952305230422_2_alg».proof.Proof.Gen.Kernel.Launch
import proofs.«117962_j22952305230422_2_alg».proof.Proof.Gen.Kernel.Points
import proofs.«117962_j22952305230422_2_alg».proof.Proof.Gen.Kernel.Frame
import proofs.«117962_j22952305230422_2_alg».proof.Proof.Gen.KernelIdeal
import proofs.«117962_j22952305230422_2_alg».proof.Proof.Gen.KernelIdeal.Skeleton
import proofs.«117962_j22952305230422_2_alg».proof.Proof.Gen.KernelIdeal.Launch
import proofs.«117962_j22952305230422_2_alg».proof.Proof.Gen.KernelIdeal.Points
import proofs.«117962_j22952305230422_2_alg».proof.Proof.Gen.KernelIdeal.Frame
import proofs.«117962_j22952305230422_2_alg».proof.Proof.Gen.ReferenceIdeal
import proofs.«117962_j22952305230422_2_alg».proof.Proof.Gen.ReferenceIdeal.Run
import proofs.«117962_j22952305230422_2_alg».proof.Proof.Gen.ReferenceIdeal.Read
import proofs.«117962_j22952305230422_2_alg».proof.Proof.Gen.Pre_finite_inputs
import proofs.«117962_j22952305230422_2_alg».proof.Proof.Result
import proofs.«117962_j22952305230422_2_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the samples and the locations, both programs end with their results at the
    normalised density of those arguments. -/
theorem algebraic : Cert.algebraic_KernelIdeal_ReferenceIdeal := by
  intro m ρ m' ρ' _ hagree
  refine ⟨fun c => Cert.Kde.pdf (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v16_eq _ _).trans (Cert.ReferenceIdeal.RefValue.ref_pdf _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
